-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x2048x32 : Shape := ⟨4, ![4, 16, 2048, 32]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x16x2048x32 : S_.BroadcastsInDim S4x16x2048x32 (![] : Fin 0 → Fin S4x16x2048x32.rank)
  reducesTo_S4x16x2048x32_S_d0_1_2_3 : S4x16x2048x32.ReducesTo [0, 1, 2, 3] S_

variable [Facts]

def fn_part1 {F : FTy → Type} [FloatOps F] (main_v13 : IVec S_ 1) (main_v16 : IVec S4x16x2048x32 1) : IVec S_ 1 :=
  let main_c_5 : IVec S_ 1 := constantI S_ 1 1#1
  let main_v17 : IVec S_ 1 := (fun x v => Host.reduce IntOp.andi x v reducesTo_S4x16x2048x32_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x32 .f32) (main_arg3 : FVec F S4x16x2048x32 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x32 .f32 := Host.absf main_arg2
  let main_cst_2 : FVec F S_ .f32 := constant S_ .f32 0x7F800000#32
  let main_v10 : FVec F S4x16x2048x32 .f32 := broadcastInDim S4x16x2048x32 ![] bcast_S_S4x16x2048x32 main_cst_2
  let main_v11 : IVec S4x16x2048x32 1 := cmpf .olt main_v9 main_v10
  let main_c_3 : IVec S_ 1 := constantI S_ 1 1#1
  let main_v12 : IVec S_ 1 := (fun x v => Host.reduce IntOp.andi x v reducesTo_S4x16x2048x32_S_d0_1_2_3 h_S_) main_v11 main_c_3
  let main_v13 : IVec S_ 1 := andi main_v8 main_v12
  let main_v14 : FVec F S4x16x2048x32 .f32 := Host.absf main_arg3
  let main_cst_4 : FVec F S_ .f32 := constant S_ .f32 0x7F800000#32
  let main_v15 : FVec F S4x16x2048x32 .f32 := broadcastInDim S4x16x2048x32 ![] bcast_S_S4x16x2048x32 main_cst_4
  let main_v16 : IVec S4x16x2048x32 1 := cmpf .olt main_v14 main_v15
  fn_part1 (F := F) main_v13 main_v16
-- ==== Kernel.lean ====
abbrev S4x16x2048x64 : Shape := ⟨4, ![4, 16, 2048, 64]⟩
abbrev S4x16x2048x32 : Shape := ⟨4, ![4, 16, 2048, 32]⟩
abbrev S64x2048x64 : Shape := ⟨3, ![64, 2048, 64]⟩
abbrev S64x2048x32 : Shape := ⟨3, ![64, 2048, 32]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x32 : Shape := ⟨3, ![1, 512, 32]⟩
abbrev S1x2048x32 : Shape := ⟨3, ![1, 2048, 32]⟩
abbrev S1x512x2048 : Shape := ⟨3, ![1, 512, 2048]⟩
abbrev S512x64 : Shape := ⟨2, ![512, 64]⟩
abbrev S2048x64 : Shape := ⟨2, ![2048, 64]⟩
abbrev S512x32 : Shape := ⟨2, ![512, 32]⟩
abbrev S2048x32 : Shape := ⟨2, ![2048, 32]⟩
abbrev S512x2048 : Shape := ⟨2, ![512, 2048]⟩
abbrev S512 : Shape := ⟨1, ![512]⟩
abbrev S512x1 : Shape := ⟨2, ![512, 1]⟩
abbrev S4x16x2048x2048 : Shape := ⟨4, ![4, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x32, .f32⟩
  | .hbm, ⟨3, _⟩ => ⟨S4x16x2048x32, .f32⟩
  | .hbm, ⟨4, _⟩ => ⟨S64x2048x64, .f32⟩
  | .hbm, ⟨5, _⟩ => ⟨S64x2048x64, .f32⟩
  | .hbm, ⟨6, _⟩ => ⟨S64x2048x32, .f32⟩
  | .hbm, ⟨7, _⟩ => ⟨S64x2048x32, .f32⟩
  | .hbm, ⟨8, _⟩ => ⟨S64x2048x2048, .f32⟩
  | .hbm, ⟨9, _⟩ => ⟨S4x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x32, .f32⟩
  | .local _ .vmem, ⟨5, _⟩ => ⟨S1x512x32, .f32⟩
  | .local _ .vmem, ⟨6, _⟩ => ⟨S1x2048x32, .f32⟩
  | .local _ .vmem, ⟨7, _⟩ => ⟨S1x2048x32, .f32⟩
  | .local _ .vmem, ⟨8, _⟩ => ⟨S1x512x2048, .f32⟩
  | .local _ .vmem, ⟨9, _⟩ => ⟨S1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  shapeCasts_S4x16x2048x32_S64x2048x32 : S4x16x2048x32.ShapeCasts S64x2048x32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S64x2048x2048_S4x16x2048x2048 : S64x2048x2048.ShapeCasts S4x16x2048x2048
  dot_S512x64_S2048x64_S512x2048_1_1_0_0_n_n_wf : DotDims.WF S512x64 S2048x64 S512x2048 [1] [1] [0] [0] [] []
  dot_S512x32_S2048x32_S512x2048_1_1_0_0_n_n_wf : DotDims.WF S512x32 S2048x32 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S64x2048x32.size a
  hwx0_2 : ∀ i : grid0.Coords, EltTy.bits .f32 = 32 ∨ (Rect.block (s := S64x2048x32) S1x512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x32.size a ≤ S64x2048x32.size a
  hwx0_3 : ∀ i : grid0.Coords, EltTy.bits .f32 = 32 ∨ (Rect.block (s := S64x2048x32) S1x2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x2048x2048.size a
  hwx0_4 : ∀ i : grid0.Coords, EltTy.bits .f32 = 32 ∨ (Rect.block (s := S64x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x32_S2048x32_S512x2048_1_1_0_0_n_n : DotDims S512x32 S2048x32 S512x2048 where
  lhsContracting := [1]
  rhsContracting := [1]
  lhsNonContracting := [0]
  rhsNonContracting := [0]
  lhsBatch := []
  rhsBatch := []
  wf := dot_S512x32_S2048x32_S512x2048_1_1_0_0_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x32 : Shape := ⟨4, ![4, 16, 2048, 32]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x32, .f32⟩
  | .hbm, ⟨3, _⟩ => ⟨S4x16x2048x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x64, .f32⟩
  | .hbm, ⟨8, _⟩ => ⟨S4x16x2048x64, .f32⟩
  | .hbm, ⟨9, _⟩ => ⟨S_, .f32⟩
  | .hbm, ⟨10, _⟩ => ⟨S4x16x2048x64, .f32⟩
  | .hbm, ⟨11, _⟩ => ⟨S4x16x2048x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x16x2048x64, .f32⟩
  | .hbm, ⟨16, _⟩ => ⟨S4x16x2048x64, .f32⟩
  | .hbm, ⟨17, _⟩ => ⟨S_, .f32⟩
  | .hbm, ⟨18, _⟩ => ⟨S4x16x2048x64, .f32⟩
  | .hbm, ⟨19, _⟩ => ⟨S4x16x2048x64, .f32⟩
  | .hbm, ⟨20, _⟩ => ⟨S4x16x2048x2048, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x16x2048x32, .f32⟩
  | .hbm, ⟨28, _⟩ => ⟨S4x16x2048x32, .f32⟩
  | .hbm, ⟨29, _⟩ => ⟨S_, .f32⟩
  | .hbm, ⟨30, _⟩ => ⟨S4x16x2048x32, .f32⟩
  | .hbm, ⟨31, _⟩ => ⟨S4x16x2048x32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x16x2048x32, .f32⟩
  | .hbm, ⟨36, _⟩ => ⟨S4x16x2048x32, .f32⟩
  | .hbm, ⟨37, _⟩ => ⟨S_, .f32⟩
  | .hbm, ⟨38, _⟩ => ⟨S4x16x2048x32, .f32⟩
  | .hbm, ⟨39, _⟩ => ⟨S4x16x2048x32, .f32⟩
  | .hbm, ⟨40, _⟩ => ⟨S4x16x2048x2048, .f32⟩
  | .hbm, ⟨41, _⟩ => ⟨S_, .f32⟩
  | .hbm, ⟨42, _⟩ => ⟨S4x16x2048x2048, .f32⟩
  | .hbm, ⟨43, _⟩ => ⟨S4x16x2048x2048, .f32⟩
  | .hbm, ⟨44, _⟩ => ⟨S4x16x2048x2048, .f32⟩
  | .hbm, ⟨45, _⟩ => ⟨S_, .f32⟩
  | .hbm, ⟨46, _⟩ => ⟨S4x16x2048, .f32⟩
  | .hbm, ⟨47, _⟩ => ⟨S_, .f32⟩
  | .hbm, ⟨48, _⟩ => ⟨S4x16x2048, .f32⟩
  | .hbm, ⟨49, _⟩ => ⟨S4x16x2048, .f32⟩
  | .hbm, ⟨50, _⟩ => ⟨S4x16x2048x1, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .f32⟩
  | .hbm, ⟨54, _⟩ => ⟨S_, .f32⟩
  | .hbm, ⟨55, _⟩ => ⟨S4x16x2048, .f32⟩
  | .hbm, ⟨56, _⟩ => ⟨S4x16x2048x1, .f32⟩
  | .hbm, ⟨57, _⟩ => ⟨S4x16x2048x2048, .f32⟩
  | .hbm, ⟨58, _⟩ => ⟨S4x16x2048x2048, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_v2 : Ref sig .tc := ⟨.hbm, 20, rfl⟩
abbrev main_cst_3 : Ref sig .tc := ⟨.hbm, 21, rfl⟩
abbrev main_v3 : Ref sig .tc := ⟨.hbm, 22, rfl⟩
abbrev main_v4 : Ref sig .tc := ⟨.hbm, 23, rfl⟩
abbrev main_cst_4 : Ref sig .tc := ⟨.hbm, 24, rfl⟩
abbrev main_cst_5 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v5 : Ref sig .tc := ⟨.hbm, 31, rfl⟩
abbrev main_cst_6 : Ref sig .tc := ⟨.hbm, 32, rfl⟩
abbrev main_cst_7 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v6 : Ref sig .tc := ⟨.hbm, 39, rfl⟩
abbrev main_v7 : Ref sig .tc := ⟨.hbm, 40, rfl⟩
abbrev main_cst_8 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_9 : Ref sig .tc := ⟨.hbm, 45, rfl⟩
abbrev main_v11 : Ref sig .tc := ⟨.hbm, 46, rfl⟩
abbrev main_cst_10 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_11 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩

abbrev nD : Nat := 1
abbrev τ : Topo := Topo.v7x

variable {F : FTy → Type} [FloatOps F]

class Facts₀ : Prop where
  bcast_S_S4x16x2048x64 : S_.BroadcastsInDim S4x16x2048x64 (![] : Fin 0 → Fin S4x16x2048x64.rank)
  bcast_S_S4x16x2048x2048 : S_.BroadcastsInDim S4x16x2048x2048 (![] : Fin 0 → Fin S4x16x2048x2048.rank)
  bcast_S_S4x16x2048x32 : S_.BroadcastsInDim S4x16x2048x32 (![] : Fin 0 → Fin S4x16x2048x32.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x32_S4x16x2048x32_S4x16x2048x2048_3_3_2_2_01_01_wf : DotDims.WF S4x16x2048x32 S4x16x2048x32 S4x16x2048x2048 [3] [3] [2] [2] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x32_S4x16x2048x32_S4x16x2048x2048_3_3_2_2_01_01 : DotDims S4x16x2048x32 S4x16x2048x32 S4x16x2048x2048 where
  lhsContracting := [3]
  rhsContracting := [3]
  lhsNonContracting := [2]
  rhsNonContracting := [2]
  lhsBatch := [0, 1]
  rhsBatch := [0, 1]
  wf := dot_S4x16x2048x32_S4x16x2048x32_S4x16x2048x2048_3_3_2_2_01_01_wf

class Facts : Prop extends Facts₀ where

variable [Facts]
-- ==== Proof.RowMath.lean ====
/-
  The mathematics of one attention row, on the extended reals, with no program in sight.

  Every input entry is first clipped to the interval between two fixed words (they denote -5 and 5), so every factor
  of every product below is a REAL number whatever the entry was. A score is a sum of two scaled dot products,

      Σ_d clip(q_d) · clip(k_d) · s  +  Σ_e clip(pq_e) · clip(pk_e) · s',

  and it can be written with each scale applied to the left factor before the sum or to the whole sum after it: over
  the reals these agree (a common factor leaves a finite sum), and the clip is what makes the factors real. A row of
  the result is the softmax of a row of scores: each score less the row's maximum, exponentiated, over the sum of
  those exponentials. The maximum is a fold of `max` that starts from the word for -∞; taking `max` with that word
  once more changes nothing, and a sum that starts from the zero word is the sum.
-/
import Idealize.ShloMosaic.PureOps.Ideal
import Idealize.ShloMosaic.PureOps.Ideal.Laws

noncomputable section

open scoped BigOperators

namespace Cert.AttnRow

open Idealize.ShloMosaic

/-- The lower and upper clip bounds, the two scales and the starting value of a row maximum, as the words both
    programs print. None of them is ever evaluated beyond "it is a real number". -/
abbrev lo : EReal := Ideal.ofBits .f32 0xC0A00000#32
abbrev hi : EReal := Ideal.ofBits .f32 0x40A00000#32
abbrev sc : EReal := Ideal.ofBits .f32 0x3E000000#32
abbrev sp : EReal := Ideal.ofBits .f32 0x3E3504F3#32
abbrev negInf : EReal := Ideal.ofBits .f32 0xFF800000#32

theorem lo_real : ∃ r : ℝ, lo = (r : EReal) := ⟨_, by simp [lo, Ideal.ofBits, Ideal.ieee]; rfl⟩
theorem hi_real : ∃ r : ℝ, hi = (r : EReal) := ⟨_, by simp [hi, Ideal.ofBits, Ideal.ieee]; rfl⟩
theorem sc_real : ∃ r : ℝ, sc = (r : EReal) := ⟨_, by simp [sc, Ideal.ofBits, Ideal.ieee]; rfl⟩
theorem sp_real : ∃ r : ℝ, sp = (r : EReal) := ⟨_, by simp [sp, Ideal.ofBits, Ideal.ieee]; rfl⟩

/-- An entry clipped to the interval between the two bounds. -/
def clip (x : EReal) : EReal := min hi (max lo x)

/-- A clipped entry is a real number, whatever the entry: at -∞ it is the smaller bound, at +∞ the upper one. -/
theorem clip_real (x : EReal) : ∃ r : ℝ, clip x = (r : EReal) := by
  obtain ⟨rl, hl⟩ := lo_real
  obtain ⟨rh, hh⟩ := hi_real
  unfold clip
  rw [hl, hh]
  induction x using EReal.rec with
  | bot => exact ⟨min rh rl, by rw [max_bot_right]; exact (EReal.coe_strictMono.monotone.map_min).symm⟩
  | top => exact ⟨rh, by rw [max_top_right]; exact min_eq_left le_top⟩
  | coe r => exact ⟨min rh (max rl r), by
      rw [← EReal.coe_strictMono.monotone.map_max, ← EReal.coe_strictMono.monotone.map_min]⟩

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A common real factor of the left operands leaves a dot product of real vectors:
    Σ (a_d · s) · b_d = (Σ a_d · b_d) · s. -/
theorem scaled_dot_real {n : ℕ} (a b : Fin n → ℝ) (s : ℝ) :
    ∑ d, ((a d : EReal) * (s : EReal)) * (b d : EReal) = (∑ d, (a d : EReal) * (b d : EReal)) * (s : EReal) := by
  simp only [← EReal.coe_mul, ← coe_sum]
  rw [EReal.coe_eq_coe_iff, Finset.sum_mul]
  exact Finset.sum_congr rfl fun d _ => by ring

/-- The same for clipped entries of any extended reals and a scale that is a real number. -/
theorem scaled_dot {n : ℕ} (q k : Fin n → EReal) (s : EReal) (hs : ∃ r : ℝ, s = (r : EReal)) :
    ∑ d, (clip (q d) * s) * clip (k d) = (∑ d, clip (q d) * clip (k d)) * s := by
  obtain ⟨r, rfl⟩ := hs
  choose a ha using fun d => clip_real (q d)
  choose b hb using fun d => clip_real (k d)
  simp only [ha, hb]
  exact scaled_dot_real a b r

/-- A score with each scale applied to the left factors before the sums (the kernel's arrangement). -/
def scoreScaledFirst {n n' : ℕ} (q k : Fin n → EReal) (pq pk : Fin n' → EReal) : EReal :=
  (∑ d, (clip (q d) * sc) * clip (k d)) + (∑ e, (clip (pq e) * sp) * clip (pk e))

/-- A score with each scale applied to its whole dot product (the reference's arrangement). -/
def score {n n' : ℕ} (q k : Fin n → EReal) (pq pk : Fin n' → EReal) : EReal :=
  (∑ d, clip (q d) * clip (k d)) * sc + (∑ e, clip (pq e) * clip (pk e)) * sp

theorem scoreScaledFirst_eq {n n' : ℕ} (q k : Fin n → EReal) (pq pk : Fin n' → EReal) :
    scoreScaledFirst q k pq pk = score q k pq pk := by
  unfold scoreScaledFirst score
  rw [scaled_dot q k sc sc_real, scaled_dot pq pk sp sp_real]

/-- The maximum of a row: the fold of `max` over the row from the word for -∞. -/
def rowMax {n : ℕ} (s : Fin n → EReal) : EReal := (Finset.univ : Finset (Fin n)).fold max negInf s

/-- The softmax of a row of scores at position `k`. -/
def softmax {n : ℕ} (s : Fin n → EReal) (k : Fin n) : EReal :=
  Ideal.div (Ideal.exp (s k - rowMax s)) (∑ k', Ideal.exp (s k' - rowMax s))

/-- Taking `max` with the fold's own starting value changes nothing: the fold is at least where it starts. -/
theorem max_rowMax {n : ℕ} (s : Fin n → EReal) : max negInf (rowMax s) = rowMax s :=
  max_eq_right ((Finset.le_fold_max _).mpr (Or.inl le_rfl))

end Cert.AttnRow

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.KernelBlock.lean ====
/-
  What the kernel's body writes for one grid point, read entry by entry.

  The body loads a block of 512 query rows and the full 2048 key rows of one head (and the same of the positional
  pair), clips every entry, scales the query side, takes the two products of rows against rows, adds them, and
  normalises each of the 512 rows of scores by a softmax over its 2048 entries. So the entry (r, k) of the stored
  block is the softmax, at position k, of the row of scores of query row r against every key row, each score with
  the scale applied to the query factor before its sum.
-/
import proofs.«166761_j69973607186633_2_alg».proof.Proof.Gen.KernelIdeal.Skeleton
import proofs.«166761_j69973607186633_2_alg».proof.Proof.RowMath
import proofs.«166761_j69973607186633_2_alg».proof.Proof.LibColumn
import proofs.«166761_j69973607186633_2_alg».proof.Proof.LibRowsDot
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.AttnRow

/-! ## Where the two products read their operands -/

abbrev dotC := dot_S512x64_S2048x64_S512x2048_1_1_0_0_n_n
abbrev dotP := dot_S512x32_S2048x32_S512x2048_1_1_0_0_n_n

theorem dotC_l0 (j : S512x2048.Idx) (c : dotC.contr.Idx) : (dotC.lhsIdx j c 0).val = (j 0).val := by
  unfold DotDims.lhsIdx
  rw [dif_neg (show ¬(0 : Fin S512x64.rank) ∈ dotC.lhsBatch by decide), dif_pos (show (0 : Fin S512x64.rank) ∈ dotC.lhsNonContracting by decide)]
  rfl
theorem dotC_l1 (j : S512x2048.Idx) (c : dotC.contr.Idx) : (dotC.lhsIdx j c 1).val = (c ⟨0, by decide⟩).val :=
  dotC.lhsIdx_val_of_single rfl j c
theorem dotC_r0 (j : S512x2048.Idx) (c : dotC.contr.Idx) : (dotC.rhsIdx j c 0).val = (j 1).val := by
  unfold DotDims.rhsIdx
  rw [dif_neg (show ¬(0 : Fin S2048x64.rank) ∈ dotC.rhsBatch by decide), dif_pos (show (0 : Fin S2048x64.rank) ∈ dotC.rhsNonContracting by decide)]
  rfl
theorem dotC_r1 (j : S512x2048.Idx) (c : dotC.contr.Idx) : (dotC.rhsIdx j c 1).val = (c ⟨0, by decide⟩).val :=
  dotC.rhsIdx_val_of_single rfl j c

theorem dotP_l0 (j : S512x2048.Idx) (c : dotP.contr.Idx) : (dotP.lhsIdx j c 0).val = (j 0).val := by
  unfold DotDims.lhsIdx
  rw [dif_neg (show ¬(0 : Fin S512x32.rank) ∈ dotP.lhsBatch by decide), dif_pos (show (0 : Fin S512x32.rank) ∈ dotP.lhsNonContracting by decide)]
  rfl
theorem dotP_l1 (j : S512x2048.Idx) (c : dotP.contr.Idx) : (dotP.lhsIdx j c 1).val = (c ⟨0, by decide⟩).val :=
  dotP.lhsIdx_val_of_single rfl j c
theorem dotP_r0 (j : S512x2048.Idx) (c : dotP.contr.Idx) : (dotP.rhsIdx j c 0).val = (j 1).val := by
  unfold DotDims.rhsIdx
  rw [dif_neg (show ¬(0 : Fin S2048x32.rank) ∈ dotP.rhsBatch by decide), dif_pos (show (0 : Fin S2048x32.rank) ∈ dotP.rhsNonContracting by decide)]
  rfl
theorem dotP_r1 (j : S512x2048.Idx) (c : dotP.contr.Idx) : (dotP.rhsIdx j c 1).val = (c ⟨0, by decide⟩).val :=
  dotP.rhsIdx_val_of_single rfl j c

/-! ## The scores of a block -/

/-- Row `r` of the loaded query block against row `k` of the loaded key block, and the same of the positional pair. -/
abbrev blockScore (x0 : Vec Ideal S1x512x64 .f32) (x1 : Vec Ideal S1x2048x64 .f32) (x2 : Vec Ideal S1x512x32 .f32)
    (x3 : Vec Ideal S1x2048x32 .f32) (r : Fin 512) (k : Fin 2048) : EReal :=
  scoreScaledFirst (fun d : Fin 64 => x0 (ix3 (0 : Fin 1) r d)) (fun d : Fin 64 => x1 (ix3 (0 : Fin 1) k d))
    (fun e : Fin 32 => x2 (ix3 (0 : Fin 1) r e)) (fun e : Fin 32 => x3 (ix3 (0 : Fin 1) k e))

/-- The sum of the two products at entry (r, k) is that score. -/
theorem scores_apply (x0 : Vec Ideal S1x512x64 .f32) (x1 : Vec Ideal S1x2048x64 .f32) (x2 : Vec Ideal S1x512x32 .f32)
    (x3 : Vec Ideal S1x2048x32 .f32) (r : Fin 512) (k : Fin 2048) :
    k0_pay2 x0 x1 x2 x3 (ix2 r k) = blockScore x0 x1 x2 x3 r k := by
  unfold k0_pay2 blockScore scoreScaledFirst
  refine congrArg₂ (· + ·)
    ((Cert.Lora.rows_dot_zero dotC (some .fp32) rfl rfl dotC_l0 dotC_l1 dotC_r0 dotC_r1 _ _ r k).trans
      (Finset.sum_congr rfl fun d _ => ?_))
    ((Cert.Lora.rows_dot_zero dotP (some .fp32) rfl rfl dotP_l0 dotP_l1 dotP_r0 dotP_r1 _ _ r k).trans
      (Finset.sum_congr rfl fun e _ => ?_))
  · refine congrArg₂ (· * ·) (congrArg (· * sc) (congrArg (fun v => min hi (max lo v)) ?_)) (congrArg (fun v => min hi (max lo v)) ?_)
    · exact shapeCast_1ab_ab_apply x0 _ r d
    · exact shapeCast_1ab_ab_apply x1 _ k d
  · refine congrArg₂ (· * ·) (congrArg (· * sp) (congrArg (fun v => min hi (max lo v)) ?_)) (congrArg (fun v => min hi (max lo v)) ?_)
    · exact shapeCast_1ab_ab_apply x2 _ r e
    · exact shapeCast_1ab_ab_apply x3 _ k e

/-! ## The row maximum and the stored block -/

/-- The kept row maximum at (r, ·) is the maximum of row `r` of the scores. -/
theorem rowmax_apply (x0 : Vec Ideal S1x512x64 .f32) (x1 : Vec Ideal S1x2048x64 .f32) (x2 : Vec Ideal S1x512x32 .f32)
    (x3 : Vec Ideal S1x2048x32 .f32) (r : Fin 512) (z : Fin 1) :
    k0_pay3 x0 x1 x2 x3 (ix2 r z) = rowMax (fun k' : Fin 2048 => blockScore x0 x1 x2 x3 r k') := by
  unfold k0_pay3
  refine (shapeCast_a_a1_apply _ _ r z).trans ?_
  refine (Ideal.multiReduction_maximumf_single (k0_pay2 x0 x1 x2 x3) 0xFF800000#32 _ _ _ (ix1 r)).trans ?_
  unfold rowMax
  refine congrArg (fun f => Finset.fold max negInf f Finset.univ) (funext fun k' => ?_)
  refine Eq.trans ?_ (scores_apply x0 x1 x2 x3 r k')
  exact congrArg (k0_pay2 x0 x1 x2 x3) (funext fun a => Fin.ext (by match a with | ⟨0, _⟩ => rfl | ⟨1, _⟩ => rfl))

/-- The stored block at (·, r, k) is the softmax at `k` of row `r` of the scores. -/
theorem stored_apply (x0 : Vec Ideal S1x512x64 .f32) (x1 : Vec Ideal S1x2048x64 .f32) (x2 : Vec Ideal S1x512x32 .f32)
    (x3 : Vec Ideal S1x2048x32 .f32) (u : Fin 1) (r : Fin 512) (k : Fin 2048) :
    k0_pay1 (k0_pay2 x0 x1 x2 x3) (k0_pay3 x0 x1 x2 x3) (ix3 u r k)
      = softmax (fun k' : Fin 2048 => blockScore x0 x1 x2 x3 r k') k := by
  have hmax : ∀ (hb : S512x1.Broadcasts S512x2048) (k' : Fin 2048),
      broadcastTo S512x2048 (k0_pay3 x0 x1 x2 x3) hb (ix2 r k') = rowMax (fun k'' : Fin 2048 => blockScore x0 x1 x2 x3 r k'') :=
    fun hb k' => (broadcastTo_a1_ab_apply (k0_pay3 x0 x1 x2 x3) hb r k').trans (rowmax_apply x0 x1 x2 x3 r 0)
  have hexp : ∀ (hb : S512x1.Broadcasts S512x2048) (k' : Fin 2048),
      exp (subf (k0_pay2 x0 x1 x2 x3) (broadcastTo S512x2048 (k0_pay3 x0 x1 x2 x3) hb)) (ix2 r k')
        = Ideal.exp (blockScore x0 x1 x2 x3 r k' - rowMax (fun k'' : Fin 2048 => blockScore x0 x1 x2 x3 r k'')) := by
    intro hb k'
    show Ideal.exp (k0_pay2 x0 x1 x2 x3 (ix2 r k') - broadcastTo S512x2048 (k0_pay3 x0 x1 x2 x3) hb (ix2 r k')) = _
    rw [hmax hb k', scores_apply]
  unfold k0_pay1
  refine (shapeCast_ab_1ab_apply _ _ u r k).trans ?_
  unfold softmax
  refine (divf_apply _ _ (ix2 r k)).trans ?_
  refine congrArg₂ Ideal.div (hexp _ k) ?_
  refine (broadcastTo_a1_ab_apply _ _ r k).trans ?_
  refine (shapeCast_a_a1_apply _ _ r 0).trans ?_
  refine (Ideal.multiReduction_add_single _ _ _ _ _ (ix1 r)).trans ?_
  refine Finset.sum_congr rfl fun k' _ => ?_
  refine Eq.trans ?_ (hexp broadcasts_S512x1_S512x2048 k')
  exact congrArg _ (funext fun a => Fin.ext (by match a with | ⟨0, _⟩ => rfl | ⟨1, _⟩ => rfl))

end Cert.KernelIdeal.Block

end
-- ==== Proof.AttnMap.lean ====
/-
  The attention map, as one function of the four argument arrays.

  For batch b, head h, query position q and key position k, the entry is the softmax, at k, of the row of scores of
  query row (b, h, q) against every key row (b, h, ·): clipped content rows and clipped positional rows, each pair's
  dot product times its scale, added.
-/
import proofs.«166761_j69973607186633_2_alg».proof.Proof.RowMath
import Idealize.ShloMosaic.Lib.ValueIdx

noncomputable section

namespace Cert.AttnMap

open Idealize.ShloMosaic Idealize.ShloMosaic.ValueIdx Cert.AttnRow

/-- The shapes of a content array, a positional array and the result. -/
abbrev Content : Shape := ⟨4, ![4, 16, 2048, 64]⟩
abbrev Positional : Shape := ⟨4, ![4, 16, 2048, 32]⟩
abbrev Result : Shape := ⟨4, ![4, 16, 2048, 2048]⟩

/-- The score of query row (b, h, q) against key row (b, h, k): `a0` the keys, `a1` the queries, `a2` the positional
    keys, `a3` the positional queries. -/
abbrev scoreAt (a0 a1 : Content.Idx → EReal) (a2 a3 : Positional.Idx → EReal)
    (b : Fin 4) (h : Fin 16) (q k : Fin 2048) : EReal :=
  score (fun d : Fin 64 => a1 (ix4 b h q d)) (fun d : Fin 64 => a0 (ix4 b h k d))
    (fun e : Fin 32 => a3 (ix4 b h q e)) (fun e : Fin 32 => a2 (ix4 b h k e))

/-- The attention map at (b, h, q, k): the softmax of the row of scores of (b, h, q), at k. -/
def attnAt (a0 a1 : Content.Idx → EReal) (a2 a3 : Positional.Idx → EReal)
    (b : Fin 4) (h : Fin 16) (q k : Fin 2048) : EReal :=
  softmax (fun k' : Fin 2048 => scoreAt a0 a1 a2 a3 b h q k') k

/-- The same as a whole array. -/
def attn (a0 a1 : Content.Idx → EReal) (a2 a3 : Positional.Idx → EReal) : Result.Idx → EReal :=
  fun i => attnAt a0 a1 a2 a3 (i 0) (i 1) (i 2) (i 3)

end Cert.AttnMap

end
-- ==== Proof.KernelArray.lean ====
/-
  The kernel's result array, as one function of its four argument arrays.

  The four arguments are first regrouped so that batch and head become one leading axis of 64 heads. Grid point
  (head g, query tile i) reads query rows 512·i … 512·i+511 and all 2048 key rows of head g and writes rows
  512·i … 512·i+511 of head g of the result; the 64 × 4 blocks tile the [64, 2048, 2048] array, so that array ends
  holding, at (g, q, k), the softmax at k of the scores of query row (g, q) against the key rows of head g. The array
  is then regrouped back to [4, 16, 2048, 2048]. Head g = 16·b + h of a regrouped array is batch b, head h of the
  argument, and moving each scale from the query factors to the finished sums gives the attention map.
-/
import proofs.«166761_j69973607186633_2_alg».proof.Proof.Gen.KernelIdeal.Frame
import proofs.«166761_j69973607186633_2_alg».proof.Proof.KernelBlock
import proofs.«166761_j69973607186633_2_alg».proof.Proof.AttnMap
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.AttnRow Cert.AttnMap
open Idealize.ShloMosaic.Pipeline (Dat)

variable (m : (ℓ : Loc nD τ sig) → Buf (Elt Ideal) ℓ) (ρ : Dev nD → PrngReg)

/-! ## The regrouped array the region writes -/

/-- Entry (g, q, k) of the [64, 2048, 2048] array: `B0` the regrouped keys, `B1` the queries, `B2` the positional
    keys, `B3` the positional queries; each scale on the query factor. -/
def headAt (B0 B1 : S64x2048x64.Idx → EReal) (B2 B3 : S64x2048x32.Idx → EReal) (g : Fin 64) (q k : Fin 2048) : EReal :=
  softmax (fun k' : Fin 2048 => scoreScaledFirst (fun d : Fin 64 => B1 (ix3 g q d)) (fun d : Fin 64 => B0 (ix3 g k' d))
    (fun e : Fin 32 => B3 (ix3 g q e)) (fun e : Fin 32 => B2 (ix3 g k' e))) k

def heads (B0 B1 : S64x2048x64.Idx → EReal) (B2 B3 : S64x2048x32.Idx → EReal) : S64x2048x2048.Idx → EReal :=
  fun i => headAt B0 B1 B2 B3 (i 0) (i 1) (i 2)

theorem scoreScaledFirst_congr {n n' : ℕ} {q q' k k' : Fin n → EReal} {pq pq' pk pk' : Fin n' → EReal}
    (hq : ∀ d, q d = q' d) (hk : ∀ d, k d = k' d) (hpq : ∀ e, pq e = pq' e) (hpk : ∀ e, pk e = pk' e) :
    scoreScaledFirst q k pq pk = scoreScaledFirst q' k' pq' pk' := by
  rw [funext hq, funext hk, funext hpq, funext hpk]

theorem hz : (![0, 0, 0] : Fin 3 → Nat) = fun _ => 0 := funext fun a => by fin_cases a <;> rfl

/-- The printed index maps, decided over the 256 grid points: the query windows move with the output window, the
    key windows follow its head only, and no window moves along the last axis. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) < 64 ∧ win0_4.index t (1 : Fin 3) < 4 :=
  (by decide +kernel : ∀ t : Fin grid0.N, _)

/-- Every (head, query tile) is some point's output block. -/
theorem idx_onto : ∀ (g : Fin 64) (i : Fin 4), ∃ t : Fin cfg0.N, win0_4.index t = ![g.val, i.val, 0] :=
  (by decide +kernel : ∀ (g : Fin 64) (i : Fin 4), ∃ t : Fin grid0.N, win0_4.index t = ![g.val, i.val, 0])

/-- What point `t` writes back is its block of `heads` of the regrouped arrays. -/
theorem flushed_eq (c : Dev nD) (t : Fin cfg0.N) :
    (dats m 0 c).flushed 4 t = ((cfg0.win 4).blk t).view.read (Elt Ideal)
      (heads (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz,
    View.ld_unit_zero (S := S1x512x32) hz, View.ld_unit_zero (S := S1x2048x32) hz]
  obtain ⟨e00, e01, e02, e10, e11, e12, e20, e21, e22, e30, e31, e32, e42, b0, b1⟩ := idx_facts t
  funext j
  obtain ⟨u, r, k, rfl⟩ : ∃ (u : Fin 1) (r : Fin 512) (k : Fin 2048), j = ix3 u r k := ⟨j 0, j 1, j 2, eq_ix3 j⟩
  have hu : u.val = 0 := by omega
  refine (Block.stored_apply (iblk m c 0 t) (iblk m c 1 t) (iblk m c 2 t) (iblk m c 3 t) u r k).trans ?_
  show _ = headAt (V m c main_v0) (V m c main_v1) (V m c main_v2) (V m c main_v3)
    (((cfg0.win 4).blk t).view.emb (ix3 u r k) 0) (((cfg0.win 4).blk t).view.emb (ix3 u r k) 1) (((cfg0.win 4).blk t).view.emb (ix3 u r k) 2)
  unfold headAt
  refine congrArg₂ softmax (funext fun k' => ?_) (Fin.ext ?_)
  · refine scoreScaledFirst_congr (fun d => ?_) (fun d => ?_) (fun e => ?_) (fun e => ?_)
    · show V m c main_v1 (((cfg0.win 0).blk t).view.emb (ix3 (0 : Fin 1) r d)) = V m c main_v1 _
      refine congrArg (V m c main_v1) (funext fun a => Fin.ext ?_)
      match a with
      | ⟨0, _⟩ => show win0_0.index t (0 : Fin 3) * 1 + 1 * 0 = win0_4.index t (0 : Fin 3) * 1 + 1 * u.val; omega
      | ⟨1, _⟩ => show win0_0.index t (1 : Fin 3) * 512 + 1 * r.val = win0_4.index t (1 : Fin 3) * 512 + 1 * r.val; omega
      | ⟨2, _⟩ => show win0_0.index t (2 : Fin 3) * 64 + 1 * d.val = d.val; omega
    · show V m c main_v0 (((cfg0.win 1).blk t).view.emb (ix3 (0 : Fin 1) k' d)) = V m c main_v0 _
      refine congrArg (V m c main_v0) (funext fun a => Fin.ext ?_)
      match a with
      | ⟨0, _⟩ => show win0_1.index t (0 : Fin 3) * 1 + 1 * 0 = win0_4.index t (0 : Fin 3) * 1 + 1 * u.val; omega
      | ⟨1, _⟩ => show win0_1.index t (1 : Fin 3) * 2048 + 1 * k'.val = k'.val; omega
      | ⟨2, _⟩ => show win0_1.index t (2 : Fin 3) * 64 + 1 * d.val = d.val; omega
    · show V m c main_v3 (((cfg0.win 2).blk t).view.emb (ix3 (0 : Fin 1) r e)) = V m c main_v3 _
      refine congrArg (V m c main_v3) (funext fun a => Fin.ext ?_)
      match a with
      | ⟨0, _⟩ => show win0_2.index t (0 : Fin 3) * 1 + 1 * 0 = win0_4.index t (0 : Fin 3) * 1 + 1 * u.val; omega
      | ⟨1, _⟩ => show win0_2.index t (1 : Fin 3) * 512 + 1 * r.val = win0_4.index t (1 : Fin 3) * 512 + 1 * r.val; omega
      | ⟨2, _⟩ => show win0_2.index t (2 : Fin 3) * 32 + 1 * e.val = e.val; omega
    · show V m c main_v2 (((cfg0.win 3).blk t).view.emb (ix3 (0 : Fin 1) k' e)) = V m c main_v2 _
      refine congrArg (V m c main_v2) (funext fun a => Fin.ext ?_)
      match a with
      | ⟨0, _⟩ => show win0_3.index t (0 : Fin 3) * 1 + 1 * 0 = win0_4.index t (0 : Fin 3) * 1 + 1 * u.val; omega
      | ⟨1, _⟩ => show win0_3.index t (1 : Fin 3) * 2048 + 1 * k'.val = k'.val; omega
      | ⟨2, _⟩ => show win0_3.index t (2 : Fin 3) * 32 + 1 * e.val = e.val; omega
  · show k.val = win0_4.index t (2 : Fin 3) * 2048 + 1 * k.val
    omega

/-- An index of the array is in point `t`'s output block iff each coordinate is in the block's range on its axis. -/
theorem mem_blk (t : Fin cfg0.N) (i : S64x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v4).slice (win0_4.rect t)).set ↔ _
  rw [View.set_slice_whole, Rect.mem_set_unit]
  exact Iff.rfl

/-- The output blocks cover the array: row q of head g is in the block of point (g, q / 512). -/
theorem cover (i : S64x2048x2048.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The region's result array after the run. -/
theorem final4 (c : Dev nD) :
    (dats m 0 c).arrAt 4 cfg0.N = heads (V m c main_v0) (V m c main_v1) (V m c main_v2) (V m c main_v3) :=
  (dats m 0 c).arrAt_eq_of_cover 4 _ (fun t _ => flushed_eq m c t) cover

/-! ## The regroupings before and after the region -/

/-- Head 16·b + h. -/
abbrev headIdx (b : Fin 4) (h : Fin 16) : Fin 64 := ⟨b.val * 16 + h.val, by omega⟩

/-- A regrouped array at (16·b + h, s, d) is the argument at (b, h, s, d): the two positions agree in row-major order. -/
theorem V_v0_apply (c : Dev nD) (b : Fin 4) (h : Fin 16) (s : Fin 2048) (d : Fin 64) :
    V m c main_v0 (ix3 (headIdx b h) s d) = m ((c : Thread nD τ).loc main_arg0) (ix4 b h s d) := by
  have e : (V m c main_v0 : S64x2048x64.Idx → EReal)
      = shapeCast S64x2048x64 (m ((c : Thread nD τ).loc main_arg0)) shapeCasts_S4x16x2048x64_S64x2048x64 := by
    show StableHlo.after hostOps0 (fun b => m (c, b)) (Proc.devRef .tc main_v0) = _
    after_results
    rfl
  rw [e]
  refine shapeCast_apply _ _ _ _ ?_
  show (S4x16x2048x64.rowMajor (ix4 b h s d)).val = (S64x2048x64.rowMajor (ix3 (headIdx b h) s d)).val
  rw [Shape.rowMajor_val_four, Shape.rowMajor_val_three]
  rfl

theorem V_v1_apply (c : Dev nD) (b : Fin 4) (h : Fin 16) (s : Fin 2048) (d : Fin 64) :
    V m c main_v1 (ix3 (headIdx b h) s d) = m ((c : Thread nD τ).loc main_arg1) (ix4 b h s d) := by
  have e : (V m c main_v1 : S64x2048x64.Idx → EReal)
      = shapeCast S64x2048x64 (m ((c : Thread nD τ).loc main_arg1)) shapeCasts_S4x16x2048x64_S64x2048x64 := by
    show StableHlo.after hostOps0 (fun b => m (c, b)) (Proc.devRef .tc main_v1) = _
    after_results
    rfl
  rw [e]
  refine shapeCast_apply _ _ _ _ ?_
  show (S4x16x2048x64.rowMajor (ix4 b h s d)).val = (S64x2048x64.rowMajor (ix3 (headIdx b h) s d)).val
  rw [Shape.rowMajor_val_four, Shape.rowMajor_val_three]
  rfl

theorem V_v2_apply (c : Dev nD) (b : Fin 4) (h : Fin 16) (s : Fin 2048) (d : Fin 32) :
    V m c main_v2 (ix3 (headIdx b h) s d) = m ((c : Thread nD τ).loc main_arg2) (ix4 b h s d) := by
  have e : (V m c main_v2 : S64x2048x32.Idx → EReal)
      = shapeCast S64x2048x32 (m ((c : Thread nD τ).loc main_arg2)) shapeCasts_S4x16x2048x32_S64x2048x32 := by
    show StableHlo.after hostOps0 (fun b => m (c, b)) (Proc.devRef .tc main_v2) = _
    after_results
    rfl
  rw [e]
  refine shapeCast_apply _ _ _ _ ?_
  show (S4x16x2048x32.rowMajor (ix4 b h s d)).val = (S64x2048x32.rowMajor (ix3 (headIdx b h) s d)).val
  rw [Shape.rowMajor_val_four, Shape.rowMajor_val_three]
  rfl

theorem V_v3_apply (c : Dev nD) (b : Fin 4) (h : Fin 16) (s : Fin 2048) (d : Fin 32) :
    V m c main_v3 (ix3 (headIdx b h) s d) = m ((c : Thread nD τ).loc main_arg3) (ix4 b h s d) := by
  have e : (V m c main_v3 : S64x2048x32.Idx → EReal)
      = shapeCast S64x2048x32 (m ((c : Thread nD τ).loc main_arg3)) shapeCasts_S4x16x2048x32_S64x2048x32 := by
    show StableHlo.after hostOps0 (fun b => m (c, b)) (Proc.devRef .tc main_v3) = _
    after_results
    rfl
  rw [e]
  refine shapeCast_apply _ _ _ _ ?_
  show (S4x16x2048x32.rowMajor (ix4 b h s d)).val = (S64x2048x32.rowMajor (ix3 (headIdx b h) s d)).val
  rw [Shape.rowMajor_val_four, Shape.rowMajor_val_three]
  rfl

/-- The result after the last regrouping, at (b, h, q, k), is the region's array at (16·b + h, q, k). -/
theorem tail_v5_apply (c : Dev nD) (b : Fin 4) (h : Fin 16) (q k : Fin 2048) :
    Pipeline.afterTail₀ cfgs (dats m) 0 (V0 m) [hostOps1] c main_v5 (ix4 b h q k)
      = (dats m 0 c).arrAt 4 cfg0.N (ix3 (headIdx b h) q k) := by
  unfold Pipeline.afterTail₀
  show StableHlo.after hostOps1 _ (Proc.devRef .tc main_v5) (ix4 b h q k) = _
  after_results
  show shapeCast S4x16x2048x2048 (Pipeline.withArrays spec0 c (V0 m c) (fun w => (dats m 0 c).arrAt w cfg0.N)
    (Proc.devRef .tc main_v4)) shapeCasts_S64x2048x2048_S4x16x2048x2048 (ix4 b h q k) = _
  refine (shapeCast_apply _ _ _ (ix3 (headIdx b h) q k) ?_).trans ?_
  · show (S64x2048x2048.rowMajor (ix3 (headIdx b h) q k)).val = (S4x16x2048x2048.rowMajor (ix4 b h q k)).val
    rw [Shape.rowMajor_val_three, Shape.rowMajor_val_four]
    rfl
  · exact congrFun (Pipeline.withArrays_arr spec0 launch0.win.arr_inj c _ _ 4) _

/-! ## The result as the attention map of the arguments -/

/-- The kernel's result array is the attention map of its four argument arrays: the region's array read through the
    last regrouping, the regrouped arrays read back to the arguments, and each scale moved from the query factors to
    its finished sum. -/
theorem result_eq (c : Dev nD) :
    Pipeline.afterTail₀ cfgs (dats m) 0 (V0 m) [hostOps1] c main_v5
      = attn (m ((c : Thread nD τ).loc main_arg0)) (m ((c : Thread nD τ).loc main_arg1))
          (m ((c : Thread nD τ).loc main_arg2)) (m ((c : Thread nD τ).loc main_arg3)) := by
  funext i
  rw [eq_ix4 i]
  refine (tail_v5_apply m c (i 0) (i 1) (i 2) (i 3)).trans ?_
  rw [final4]
  show headAt (V m c main_v0) (V m c main_v1) (V m c main_v2) (V m c main_v3) (headIdx (i 0) (i 1)) (i 2) (i 3)
    = attnAt _ _ _ _ (i 0) (i 1) (i 2) (i 3)
  unfold headAt attnAt
  refine congrArg (fun f => softmax f (i 3)) (funext fun k' => ?_)
  refine (scoreScaledFirst_congr (fun d => V_v1_apply m c (i 0) (i 1) (i 2) d) (fun d => V_v0_apply m c (i 0) (i 1) k' d)
    (fun e => V_v3_apply m c (i 0) (i 1) (i 2) e) (fun e => V_v2_apply m c (i 0) (i 1) k' e)).trans ?_
  exact scoreScaledFirst_eq _ _ _ _

/-- The kernel's run: every weakly fair execution terminates with the result at the attention map of the arguments
    and the arguments unchanged. -/
theorem run : θ_run defs (onTc (τ := τ) (main (F := Ideal))) ⟨m, fun _ => 0, ρ⟩ fun r => ∀ c : Dev nD,
      r.2.mem ((c.tc : Thread nD τ).loc main_v5)
        = attn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.RefValue.lean ====
/-
  The reference, read entry by entry.

  The reference clips the four arrays, takes for every batch b and head h the product of the clipped query rows
  against the clipped key rows, scales it, does the same for the positional pair, adds the two, and applies a
  softmax along the last axis. So its entry (b, h, q, k) is the softmax, at position k, of the row of scores of query
  row (b, h, q) against every key row (b, h, ·), each score with its scale applied after its sum. The maximum the
  softmax subtracts is taken a second time against -∞, and the normalising sum starts from the zero word; neither
  changes the value.
-/
import proofs.«166761_j69973607186633_2_alg».proof.Proof.Gen.ReferenceIdeal.Read
import proofs.«166761_j69973607186633_2_alg».proof.Proof.RowMath
import proofs.«166761_j69973607186633_2_alg».proof.Proof.AttnMap
import Idealize.ShloMosaic.Lib.ValueIdx
import Idealize.ShloMosaic.PureOps.Ideal.Laws
import Idealize.ShloMosaic.PureOps.Reduce

noncomputable section

open scoped BigOperators

namespace Cert.ReferenceIdeal.RefValue

open Idealize.ShloMosaic Idealize.ShloMosaic.ValueIdx Cert.ReferenceIdeal Cert.ReferenceIdeal.Gen Cert.ReferenceIdeal.Read Cert.AttnRow Cert.AttnMap

/-! ## The four clipped arrays -/

theorem clipped0 (a0 : (⟨S4x16x2048x64, .f32⟩ : BufTy).Contents (Elt Ideal)) (j : S4x16x2048x64.Idx) :
    val_main_v0 (F := Ideal) a0 j = clip (a0 j) := by
  rw [val_main_v0_apply, val_main_call0_v4_apply, val_main_call0_v3_apply, val_main_cst_0_apply, val_main_call0_v2_apply,
    val_main_call0_v1_apply, val_main_call0_v0_apply, val_main_cst_apply]
  rfl
theorem clipped1 (a1 : (⟨S4x16x2048x64, .f32⟩ : BufTy).Contents (Elt Ideal)) (j : S4x16x2048x64.Idx) :
    val_main_v1 (F := Ideal) a1 j = clip (a1 j) := by
  rw [val_main_v1_apply, val_main_call1_v4_apply, val_main_call1_v3_apply, val_main_cst_2_apply, val_main_call1_v2_apply,
    val_main_call1_v1_apply, val_main_call1_v0_apply, val_main_cst_1_apply]
  rfl
theorem clipped2 (a2 : (⟨S4x16x2048x32, .f32⟩ : BufTy).Contents (Elt Ideal)) (j : S4x16x2048x32.Idx) :
    val_main_v5 (F := Ideal) a2 j = clip (a2 j) := by
  rw [val_main_v5_apply, val_main_call2_v4_apply, val_main_call2_v3_apply, val_main_cst_5_apply, val_main_call2_v2_apply,
    val_main_call2_v1_apply, val_main_call2_v0_apply, val_main_cst_4_apply]
  rfl
theorem clipped3 (a3 : (⟨S4x16x2048x32, .f32⟩ : BufTy).Contents (Elt Ideal)) (j : S4x16x2048x32.Idx) :
    val_main_v6 (F := Ideal) a3 j = clip (a3 j) := by
  rw [val_main_v6_apply, val_main_call3_v4_apply, val_main_call3_v3_apply, val_main_cst_7_apply, val_main_call3_v2_apply,
    val_main_call3_v1_apply, val_main_call3_v0_apply, val_main_cst_6_apply]
  rfl

/-! ## The scores -/

theorem scores_apply (a0 a1 : (⟨S4x16x2048x64, .f32⟩ : BufTy).Contents (Elt Ideal))
    (a2 a3 : (⟨S4x16x2048x32, .f32⟩ : BufTy).Contents (Elt Ideal)) (b : Fin 4) (h : Fin 16) (q k : Fin 2048) :
    val_main_v10 (F := Ideal) a0 a1 a2 a3 (ix4 b h q k) = scoreAt a0 a1 a2 a3 b h q k := by
  rw [val_main_v10_apply, val_main_v4_apply, val_main_v9_apply, val_main_v2_apply, val_main_v7_apply, val_main_v3_apply,
    val_main_v8_apply, val_main_cst_3_apply, val_main_cst_8_apply]
  unfold scoreAt score
  refine congrArg₂ (· + ·)
    (congrArg (· * sc) (Finset.sum_congr rfl fun d _ => ?_))
    (congrArg (· * sp) (Finset.sum_congr rfl fun e _ => ?_))
  · rw [clipped1, clipped0]
    have el : lidx_main_v2 (ix4 b h q k) d = ix4 b h q d :=
      funext fun a => Fin.ext (by match a with | ⟨0, _⟩ => rfl | ⟨1, _⟩ => rfl | ⟨2, _⟩ => rfl | ⟨3, _⟩ => rfl)
    have er : ridx_main_v2 (ix4 b h q k) d = ix4 b h k d :=
      funext fun a => Fin.ext (by match a with | ⟨0, _⟩ => rfl | ⟨1, _⟩ => rfl | ⟨2, _⟩ => rfl | ⟨3, _⟩ => rfl)
    rw [el, er]
  · rw [clipped3, clipped2]
    have el : lidx_main_v7 (ix4 b h q k) e = ix4 b h q e :=
      funext fun a => Fin.ext (by match a with | ⟨0, _⟩ => rfl | ⟨1, _⟩ => rfl | ⟨2, _⟩ => rfl | ⟨3, _⟩ => rfl)
    have er : ridx_main_v7 (ix4 b h q k) e = ix4 b h k e :=
      funext fun a => Fin.ext (by match a with | ⟨0, _⟩ => rfl | ⟨1, _⟩ => rfl | ⟨2, _⟩ => rfl | ⟨3, _⟩ => rfl)
    rw [el, er]

/-! ## The row maximum -/

theorem rowmax_apply (a0 a1 : (⟨S4x16x2048x64, .f32⟩ : BufTy).Contents (Elt Ideal))
    (a2 a3 : (⟨S4x16x2048x32, .f32⟩ : BufTy).Contents (Elt Ideal)) (b : Fin 4) (h : Fin 16) (q : Fin 2048) :
    val_main_v13 (F := Ideal) a0 a1 a2 a3 (ix3 b h q) = rowMax (fun k' : Fin 2048 => scoreAt a0 a1 a2 a3 b h q k') := by
  rw [val_main_v13_apply, val_main_v12_apply, val_main_cst_10_apply]
  unfold val_main_v11
  have hr : S4x16x2048x2048.Reduces [3] S4x16x2048 := by decide
  rw [Host.reduce_eq_fold_single FloatOps.maximumf _ _ _ hr _ (ix3 b h q)]
  refine Eq.trans ?_ (max_rowMax _)
  refine congrArg (max negInf) ?_
  unfold rowMax
  refine congrArg (fun f => Finset.fold max negInf f Finset.univ) (funext fun k' => ?_)
  refine Eq.trans ?_ (scores_apply a0 a1 a2 a3 b h q k')
  exact congrArg (val_main_v10 (F := Ideal) a0 a1 a2 a3)
    (funext fun a => Fin.ext (by match a with | ⟨0, _⟩ => rfl | ⟨1, _⟩ => rfl | ⟨2, _⟩ => rfl | ⟨3, _⟩ => rfl))

/-! ## The result -/

theorem result_apply (a0 a1 : (⟨S4x16x2048x64, .f32⟩ : BufTy).Contents (Elt Ideal))
    (a2 a3 : (⟨S4x16x2048x32, .f32⟩ : BufTy).Contents (Elt Ideal)) (b : Fin 4) (h : Fin 16) (q k : Fin 2048) :
    val_main_v21 (F := Ideal) a0 a1 a2 a3 (ix4 b h q k) = attnAt a0 a1 a2 a3 b h q k := by
  have hexp : ∀ k' : Fin 2048, val_main_v17 (F := Ideal) a0 a1 a2 a3 (ix4 b h q k')
      = Ideal.exp (scoreAt a0 a1 a2 a3 b h q k' - rowMax (fun k'' : Fin 2048 => scoreAt a0 a1 a2 a3 b h q k'')) := by
    intro k'
    rw [val_main_v17_apply, val_main_v16_apply, val_main_v15_apply, val_main_v14_apply, scores_apply]
    have e : idx_main_v14 (idx_main_v15 (ix4 b h q k')) = ix3 b h q :=
      funext fun a => Fin.ext (by match a with | ⟨0, _⟩ => rfl | ⟨1, _⟩ => rfl | ⟨2, _⟩ => rfl)
    rw [e, rowmax_apply]
    rfl
  rw [val_main_v21_apply, val_main_v20_apply, val_main_v19_apply, val_main_v18_apply, val_main_cst_11_apply, hexp]
  have e : idx_main_v19 (idx_main_v20 (ix4 b h q k)) = ix3 b h q :=
    funext fun a => Fin.ext (by match a with | ⟨0, _⟩ => rfl | ⟨1, _⟩ => rfl | ⟨2, _⟩ => rfl)
  rw [e]
  have es : ∀ k' : Fin 2048, idx_main_v18 (ix3 b h q) k' = ix4 b h q k' := fun k' =>
    funext fun a => Fin.ext (by match a with | ⟨0, _⟩ => rfl | ⟨1, _⟩ => rfl | ⟨2, _⟩ => rfl | ⟨3, _⟩ => rfl)
  simp only [es, hexp]
  unfold attnAt softmax
  rw [Ideal.hostDivf_def, Ideal.ofBits_def, Ideal.ofBits_zero_f32, zero_add]

/-- The reference's whole result array is the attention map of its four argument arrays. -/
theorem result_eq (a0 a1 : (⟨S4x16x2048x64, .f32⟩ : BufTy).Contents (Elt Ideal))
    (a2 a3 : (⟨S4x16x2048x32, .f32⟩ : BufTy).Contents (Elt Ideal)) :
    val_main_v21 (F := Ideal) a0 a1 a2 a3 = attn a0 a1 a2 a3 := by
  funext i
  rw [eq_ix4 i]
  exact result_apply a0 a1 a2 a3 (i 0) (i 1) (i 2) (i 3)

end Cert.ReferenceIdeal.RefValue

end
-- ==== Proof.lean ====
/-
  A Pallas attention-map kernel against its jnp reference, over the extended reals.

  Both programs clip the four inputs (keys, queries, positional keys, positional queries) to the interval between two
  fixed words, form for every batch, head and query position the row of scores against all key positions — the content
  dot product times one scale plus the positional dot product times another — and return the softmax of each row.
  They differ in three ways, none of which changes a value here. The kernel regroups batch and head into one axis of
  64 heads, works on blocks of 512 query rows, and regroups the result back; a regrouping keeps row-major positions, and
  the blocks tile the result. The kernel multiplies the clipped query entries by the scale before the dot product where
  the reference multiplies the finished dot product; every clipped entry and both scales are real numbers, and a common
  real factor leaves a finite sum. The reference takes its row maximum once more against -∞ and starts its normalising
  sum from the zero word; both are identities. Idealizing the kernel rewrote no operation, so its idealization is its own
  text and that conjunct is trivial; the three frames are the generated ones (the reference's is its generated run with
  the result dropped).
-/
import proofs.«166761_j69973607186633_2_alg».proof.Defs
import proofs.«166761_j69973607186633_2_alg».proof.Proof.Gen.Kernel
import proofs.«166761_j69973607186633_2_alg».proof.Proof.Gen.Kernel.Skeleton
import proofs.«166761_j69973607186633_2_alg».proof.Proof.Gen.Kernel.Launch
import proofs.«166761_j69973607186633_2_alg».proof.Proof.Gen.Kernel.Points
import proofs.«166761_j69973607186633_2_alg».proof.Proof.Gen.Kernel.Frame
import proofs.«166761_j69973607186633_2_alg».proof.Proof.Gen.KernelIdeal
import proofs.«166761_j69973607186633_2_alg».proof.Proof.Gen.KernelIdeal.Skeleton
import proofs.«166761_j69973607186633_2_alg».proof.Proof.Gen.KernelIdeal.Launch
import proofs.«166761_j69973607186633_2_alg».proof.Proof.Gen.KernelIdeal.Points
import proofs.«166761_j69973607186633_2_alg».proof.Proof.Gen.KernelIdeal.Frame
import proofs.«166761_j69973607186633_2_alg».proof.Proof.Gen.ReferenceIdeal
import proofs.«166761_j69973607186633_2_alg».proof.Proof.Gen.ReferenceIdeal.Run
import proofs.«166761_j69973607186633_2_alg».proof.Proof.Gen.ReferenceIdeal.Read
import proofs.«166761_j69973607186633_2_alg».proof.Proof.Gen.Pre_finite_inputs
import proofs.«166761_j69973607186633_2_alg».proof.Proof.KernelArray
import proofs.«166761_j69973607186633_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the attention map of the arguments: the kernel by its run read through the blocks
    and the two regroupings, the reference by its generated run read entry by entry; the arguments agree. -/
theorem algebraic : Cert.algebraic_KernelIdeal_ReferenceIdeal := by
  intro m ρ m' ρ' _ hagree
  refine ⟨fun c => Cert.AttnMap.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
